-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S131072x128x12 : Shape := ⟨3, ![131072, 128, 12]⟩
abbrev S256x128 : Shape := ⟨2, ![256, 128]⟩
abbrev S256x128x12 : Shape := ⟨3, ![256, 128, 12]⟩
abbrev S256x128x1 : Shape := ⟨3, ![256, 128, 1]⟩
abbrev S16777216x12 : Shape := ⟨2, ![16777216, 12]⟩

abbrev nBuf : Space → Nat
  | .hbm => 4
  | .vmem => 4
  | .smem => 0
  | _ => 0

abbrev bufTy : (tb : Table) → Fin (tcTables nBuf tb) → BufTy
  | .hbm, ⟨0, _⟩ => ⟨S16777216, .f32⟩
  | .hbm, ⟨1, _⟩ => ⟨S131072x128, .f32⟩
  | .hbm, ⟨2, _⟩ => ⟨S131072x128x12, .f32⟩
  | .hbm, ⟨3, _⟩ => ⟨S16777216x12, .f32⟩
  | .local _ .vmem, ⟨0, _⟩ => ⟨S256x128, .f32⟩
  | .local _ .vmem, ⟨1, _⟩ => ⟨S256x128, .f32⟩
  | .local _ .vmem, ⟨2, _⟩ => ⟨S256x128x12, .f32⟩
  | .local _ .vmem, ⟨3, _⟩ => ⟨S256x128x12, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16777216_S131072x128 : S16777216.ShapeCasts S131072x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x128x1 : S256x128.ShapeCasts S256x128x1
  concatenates_S256x128x1_S256x128x1_S256x128x1_S256x128x1_S256x128x1_S256x128x1_S256x128x1_S256x128x1_S256x128x1_S256x128x1_S256x128x1_S256x128x1_S256x128x12_d2 : Shape.Concatenates [S256x128x1, S256x128x1, S256x128x1, S256x128x1, S256x128x1, S256x128x1, S256x128x1, S256x128x1, S256x128x1, S256x128x1, S256x128x1, S256x128x1] S256x128x12 2
  inb_S256x128x12_S256x128x12_0_0_0 : ∀ a, (![0, 0, 0] : Fin 3 → Nat) a + S256x128x12.size a ≤ S256x128x12.size a
  h_S256x128x12 : 0 < S256x128x12.numel
  shapeCasts_S131072x128x12_S16777216x12 : S131072x128x12.ShapeCasts S16777216x12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S131072x128.size a
  hwx0_0 : ∀ i : grid0.Coords, EltTy.bits .f32 = 32 ∨ (Rect.block (s := S131072x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128x12.size a ≤ S131072x128x12.size a
  hwx0_1 : ∀ i : grid0.Coords, EltTy.bits .f32 = 32 ∨ (Rect.block (s := S131072x128x12) S256x128x12.size (cc0_transform_1 i) (hinb0_1 i)).WholeWords (EltTy.packing .f32)

variable [Facts₀]

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128x12.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S16777216x1 : Shape := ⟨2, ![16777216, 1]⟩
abbrev S16777216x12 : Shape := ⟨2, ![16777216, 12]⟩

abbrev nBuf : Space → Nat
  | .hbm => 126
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S_, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S_, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S_, .f32⟩
  | .hbm, ⟨41, _⟩ => ⟨S16777216, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S16777216, .f32⟩
  | .hbm, ⟨46, _⟩ => ⟨S16777216, .f32⟩
  | .hbm, ⟨47, _⟩ => ⟨S_, .f32⟩
  | .hbm, ⟨48, _⟩ => ⟨S16777216, .f32⟩
  | .hbm, ⟨49, _⟩ => ⟨S16777216, .f32⟩
  | .hbm, ⟨50, _⟩ => ⟨S16777216, .f32⟩
  | .hbm, ⟨51, _⟩ => ⟨S_, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S16777216, .f32⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S_, .f32⟩
  | .hbm, ⟨63, _⟩ => ⟨S16777216, .f32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S_, .f32⟩
  | .hbm, ⟨70, _⟩ => ⟨S16777216, .f32⟩
  | .hbm, ⟨71, _⟩ => ⟨S16777216, .f32⟩
  | .hbm, ⟨72, _⟩ => ⟨S16777216, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S16777216, .f32⟩
  | .hbm, ⟨77, _⟩ => ⟨S_, .f32⟩
  | .hbm, ⟨78, _⟩ => ⟨S16777216, .f32⟩
  | .hbm, ⟨79, _⟩ => ⟨S16777216, .f32⟩
  | .hbm, ⟨80, _⟩ => ⟨S_, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S_, .f32⟩
  | .hbm, ⟨85, _⟩ => ⟨S16777216, .f32⟩
  | .hbm, ⟨86, _⟩ => ⟨S16777216, .f32⟩
  | .hbm, ⟨87, _⟩ => ⟨S16777216, .f32⟩
  | .hbm, ⟨88, _⟩ => ⟨S_, .f32⟩
  | .hbm, ⟨89, _⟩ => ⟨S16777216, .f32⟩
  | .hbm, ⟨90, _⟩ => ⟨S16777216, .f32⟩
  | .hbm, ⟨91, _⟩ => ⟨S_, .f32⟩
  | .hbm, ⟨92, _⟩ => ⟨S16777216, .f32⟩
  | .hbm, ⟨93, _⟩ => ⟨S16777216, .f32⟩
  | .hbm, ⟨94, _⟩ => ⟨S16777216, .f32⟩
  | .hbm, ⟨95, _⟩ => ⟨S_, .f32⟩
  | .hbm, ⟨96, _⟩ => ⟨S16777216, .f32⟩
  | .hbm, ⟨97, _⟩ => ⟨S16777216, .f32⟩
  | .hbm, ⟨98, _⟩ => ⟨S16777216, .f32⟩
  | .hbm, ⟨99, _⟩ => ⟨S_, .f32⟩
  | .hbm, ⟨100, _⟩ => ⟨S16777216, .f32⟩
  | .hbm, ⟨101, _⟩ => ⟨S16777216, .f32⟩
  | .hbm, ⟨102, _⟩ => ⟨S_, .f32⟩
  | .hbm, ⟨103, _⟩ => ⟨S16777216, .f32⟩
  | .hbm, ⟨104, _⟩ => ⟨S16777216, .f32⟩
  | .hbm, ⟨105, _⟩ => ⟨S16777216, .f32⟩
  | .hbm, ⟨106, _⟩ => ⟨S_, .f32⟩
  | .hbm, ⟨107, _⟩ => ⟨S16777216, .f32⟩
  | .hbm, ⟨108, _⟩ => ⟨S16777216, .f32⟩
  | .hbm, ⟨109, _⟩ => ⟨S16777216, .f32⟩
  | .hbm, ⟨110, _⟩ => ⟨S_, .f32⟩
  | .hbm, ⟨111, _⟩ => ⟨S16777216, .f32⟩
  | .hbm, ⟨112, _⟩ => ⟨S16777216, .f32⟩
  | .hbm, ⟨113, _⟩ => ⟨S16777216x1, .f32⟩
  | .hbm, ⟨114, _⟩ => ⟨S16777216x1, .f32⟩
  | .hbm, ⟨115, _⟩ => ⟨S16777216x1, .f32⟩
  | .hbm, ⟨116, _⟩ => ⟨S16777216x1, .f32⟩
  | .hbm, ⟨117, _⟩ => ⟨S16777216x1, .f32⟩
  | .hbm, ⟨118, _⟩ => ⟨S16777216x1, .f32⟩
  | .hbm, ⟨119, _⟩ => ⟨S16777216x1, .f32⟩
  | .hbm, ⟨120, _⟩ => ⟨S16777216x1, .f32⟩
  | .hbm, ⟨121, _⟩ => ⟨S16777216x1, .f32⟩
  | .hbm, ⟨122, _⟩ => ⟨S16777216x1, .f32⟩
  | .hbm, ⟨123, _⟩ => ⟨S16777216x1, .f32⟩
  | .hbm, ⟨124, _⟩ => ⟨S16777216x1, .f32⟩
  | .hbm, ⟨125, _⟩ => ⟨S16777216x12, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_7 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_8 : Ref sig .tc := ⟨.hbm, 33, rfl⟩
abbrev main_v23 : Ref sig .tc := ⟨.hbm, 34, rfl⟩
abbrev main_v24 : Ref sig .tc := ⟨.hbm, 35, rfl⟩
abbrev main_cst_9 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_10 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_11 : Ref sig .tc := ⟨.hbm, 44, rfl⟩
abbrev main_v31 : Ref sig .tc := ⟨.hbm, 45, rfl⟩
abbrev main_v32 : Ref sig .tc := ⟨.hbm, 46, rfl⟩
abbrev main_cst_12 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_13 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_14 : Ref sig .tc := ⟨.hbm, 55, rfl⟩
abbrev main_v39 : Ref sig .tc := ⟨.hbm, 56, rfl⟩
abbrev main_v40 : Ref sig .tc := ⟨.hbm, 57, rfl⟩
abbrev main_cst_15 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_16 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_17 : Ref sig .tc := ⟨.hbm, 66, rfl⟩
abbrev main_v47 : Ref sig .tc := ⟨.hbm, 67, rfl⟩
abbrev main_v48 : Ref sig .tc := ⟨.hbm, 68, rfl⟩
abbrev main_cst_18 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_19 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_20 : Ref sig .tc := ⟨.hbm, 77, rfl⟩
abbrev main_v55 : Ref sig .tc := ⟨.hbm, 78, rfl⟩
abbrev main_v56 : Ref sig .tc := ⟨.hbm, 79, rfl⟩
abbrev main_cst_21 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_22 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_23 : Ref sig .tc := ⟨.hbm, 88, rfl⟩
abbrev main_v63 : Ref sig .tc := ⟨.hbm, 89, rfl⟩
abbrev main_v64 : Ref sig .tc := ⟨.hbm, 90, rfl⟩
abbrev main_cst_24 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_25 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_26 : Ref sig .tc := ⟨.hbm, 99, rfl⟩
abbrev main_v71 : Ref sig .tc := ⟨.hbm, 100, rfl⟩
abbrev main_v72 : Ref sig .tc := ⟨.hbm, 101, rfl⟩
abbrev main_cst_27 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_28 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_29 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x1_S16777216x1_S16777216x1_S16777216x1_S16777216x1_S16777216x1_S16777216x1_S16777216x1_S16777216x1_S16777216x1_S16777216x12_d1 : Shape.Concatenates [S16777216x1, S16777216x1, S16777216x1, S16777216x1, S16777216x1, S16777216x1, S16777216x1, S16777216x1, S16777216x1, S16777216x1, S16777216x1, S16777216x1] S16777216x12 1

variable [Facts₀]

class Facts : Prop extends Facts₀ where

variable [Facts]
-- ==== Proof.Legendre.lean ====
/-
  The Legendre polynomials P₀ … P₁₁ on the extended reals, by Bonnet's recurrence with the coefficients
  kept as the float words both programs print:
      P₀ = 1,   P₁ = x,   P₍ₙ₊₁₎ = ((2n+1)·x·Pₙ − n·P₍ₙ₋₁₎) / (n+1).
  Both programs evaluate this recurrence element by element, in this order of operations and with these
  words, so no algebraic law of the extended reals is needed: each side, read at an index, IS this term.
  `step` is one turn of the recurrence; `kstep_apply` and `hstep_apply` say that the two spellings of
  one turn on whole vectors (a splat scalar and the vector unit's quotient; a broadcast rank-0 constant and
  the host's quotient) read `step` at every index.
-/
import Idealize.ShloMosaic.PureOps.Ideal
import Idealize.ShloMosaic.Lib.ValueIdx

noncomputable section

namespace Cert.Legendre

open Idealize.ShloMosaic Idealize.ShloMosaic.ValueIdx

/-- One turn of Bonnet's recurrence: `(a·x·pc − b·pp) / c`, the three coefficients float words. -/
def step (a b c : BitVec 32) (x pc pp : EReal) : EReal :=
  Ideal.div (Ideal.ofBits .f32 a * x * pc - Ideal.ofBits .f32 b * pp) (Ideal.ofBits .f32 c)

/-- P₀ = 1 (the word of 1.0). -/
def p0 (_ : EReal) : EReal := Ideal.ofBits .f32 0x3F800000#32
/-- P₁ = x. -/
def p1 (x : EReal) : EReal := x
/-- P₂ = (3·x·P₁ − 1·P₀) / 2. -/
def p2 (x : EReal) : EReal := step 0x40400000#32 0x3F800000#32 0x40000000#32 x (p1 x) (p0 x)
/-- P₃ = (5·x·P₂ − 2·P₁) / 3. -/
def p3 (x : EReal) : EReal := step 0x40A00000#32 0x40000000#32 0x40400000#32 x (p2 x) (p1 x)
/-- P₄ = (7·x·P₃ − 3·P₂) / 4. -/
def p4 (x : EReal) : EReal := step 0x40E00000#32 0x40400000#32 0x40800000#32 x (p3 x) (p2 x)
/-- P₅ = (9·x·P₄ − 4·P₃) / 5. -/
def p5 (x : EReal) : EReal := step 0x41100000#32 0x40800000#32 0x40A00000#32 x (p4 x) (p3 x)
/-- P₆ = (11·x·P₅ − 5·P₄) / 6. -/
def p6 (x : EReal) : EReal := step 0x41300000#32 0x40A00000#32 0x40C00000#32 x (p5 x) (p4 x)
/-- P₇ = (13·x·P₆ − 6·P₅) / 7. -/
def p7 (x : EReal) : EReal := step 0x41500000#32 0x40C00000#32 0x40E00000#32 x (p6 x) (p5 x)
/-- P₈ = (15·x·P₇ − 7·P₆) / 8. -/
def p8 (x : EReal) : EReal := step 0x41700000#32 0x40E00000#32 0x41000000#32 x (p7 x) (p6 x)
/-- P₉ = (17·x·P₈ − 8·P₇) / 9. -/
def p9 (x : EReal) : EReal := step 0x41880000#32 0x41000000#32 0x41100000#32 x (p8 x) (p7 x)
/-- P₁₀ = (19·x·P₉ − 9·P₈) / 10. -/
def p10 (x : EReal) : EReal := step 0x41980000#32 0x41100000#32 0x41200000#32 x (p9 x) (p8 x)
/-- P₁₁ = (21·x·P₁₀ − 10·P₉) / 11. -/
def p11 (x : EReal) : EReal := step 0x41A80000#32 0x41200000#32 0x41300000#32 x (p10 x) (p9 x)

/-- The twelve polynomials by order. -/
def P (k : Fin 12) (x : EReal) : EReal :=
  match k with
  | ⟨0, _⟩ => p0 x | ⟨1, _⟩ => p1 x | ⟨2, _⟩ => p2 x | ⟨3, _⟩ => p3 x | ⟨4, _⟩ => p4 x | ⟨5, _⟩ => p5 x
  | ⟨6, _⟩ => p6 x | ⟨7, _⟩ => p7 x | ⟨8, _⟩ => p8 x | ⟨9, _⟩ => p9 x | ⟨10, _⟩ => p10 x | ⟨11, _⟩ => p11 x

/-- The result both programs compute: entry `(i, k)` of the `[16777216, 12]` array is `P k` of entry `i` of the
    argument. -/
def G (x : (⟨1, ![16777216]⟩ : Shape).Idx → EReal) : (⟨2, ![16777216, 12]⟩ : Shape).Idx → EReal :=
  fun j => P (j 1) (x (ix1 (j 0)))

theorem G_apply (x : (⟨1, ![16777216]⟩ : Shape).Idx → EReal) (i : Fin 16777216) (k : Fin 12) :
    G x (ix2 i k) = P k (x (ix1 i)) := rfl

/-- One turn on whole vectors as the vector unit spells it — splat scalars, `arith.divf` — reads `step` at
    every index. -/
theorem kstep_apply {S : Shape} (a b c : BitVec 32) (x pc pp : FVec Ideal S .f32) (i : S.Idx) :
    divf (subf (mulf (mulf (broadcast S (Scalar.ofBits (F := Ideal) .f32 a)) x) pc)
      (mulf (broadcast S (Scalar.ofBits (F := Ideal) .f32 b)) pp)) (broadcast S (Scalar.ofBits (F := Ideal) .f32 c)) i
      = step a b c (x i) (pc i) (pp i) := rfl

/-- One turn on whole vectors as the host spells it — rank-0 constants broadcast, `stablehlo.divide` — reads
    `step` at every index. -/
theorem hstep_apply {S : Shape} (hb : (⟨0, ![]⟩ : Shape).BroadcastsInDim S (![] : Fin 0 → Fin S.rank))
    (a b c : BitVec 32) (x pc pp : FVec Ideal S .f32) (i : S.Idx) :
    Host.divf (subf (mulf (mulf (broadcastInDim S ![] hb (constant (F := Ideal) ⟨0, ![]⟩ .f32 a)) x) pc)
      (mulf (broadcastInDim S ![] hb (constant (F := Ideal) ⟨0, ![]⟩ .f32 b)) pp))
      (broadcastInDim S ![] hb (constant (F := Ideal) ⟨0, ![]⟩ .f32 c)) i
      = step a b c (x i) (pc i) (pp i) := rfl

/-- A rank-0 constant broadcast to any shape reads its word's value everywhere. -/
theorem hconst_apply {S : Shape} (hb : (⟨0, ![]⟩ : Shape).BroadcastsInDim S (![] : Fin 0 → Fin S.rank))
    (a : BitVec 32) (i : S.Idx) :
    broadcastInDim S ![] hb (constant (F := Ideal) ⟨0, ![]⟩ .f32 a) i = Ideal.ofBits .f32 a := rfl

end Cert.Legendre

end
-- ==== Proof.LibStackLast.lean ====
/-
  `jnp.stack([x₀, …, x₁₁], axis=-1)` read at an index, in the two spellings a lowering gives it.
  Twelve arrays of one shape are each given a new last axis of extent 1 and concatenated along it; entry
  `(…, k)` of the result is entry `(…)` of the `k`-th array. The new unit axis is made by a shape cast
  `[a, b] → [a, b, 1]` on the vector unit and by `broadcast_in_dim [n] → [n, 1]` (dims `[0]`) on the host.
  Both rest on one fact about a concatenation of twelve pieces of one shape with extent 1 along the axis:
  the axis coordinate names the piece, the other coordinates are kept (`concat12_unit_apply`).
-/
import Idealize.ShloMosaic.Lib.Pipeline.Value
import Idealize.ShloMosaic.Lib.ValueIdx

noncomputable section

namespace Cert.LibStackLast

open Idealize.ShloMosaic Idealize.ShloMosaic.ValueIdx

/-- The `k`-th of twelve things. -/
def pick12 {β : Type} (x0 x1 x2 x3 x4 x5 x6 x7 x8 x9 x10 x11 : β) (k : Fin 12) : β :=
  match k with | ⟨0, _⟩ => x0 | ⟨1, _⟩ => x1 | ⟨2, _⟩ => x2 | ⟨3, _⟩ => x3 | ⟨4, _⟩ => x4 | ⟨5, _⟩ => x5 | ⟨6, _⟩ => x6 | ⟨7, _⟩ => x7 | ⟨8, _⟩ => x8 | ⟨9, _⟩ => x9 | ⟨10, _⟩ => x10 | ⟨11, _⟩ => x11

variable {α : Type}

/-- A concatenation of twelve pieces of ONE shape whose extent along the axis is 1, read at an index whose axis
    coordinate is `k`: the `k`-th piece at the index with the same other coordinates. -/
theorem concat12_unit_apply {t s₁ : Shape} (a : Fin t.rank) (x0 x1 x2 x3 x4 x5 x6 x7 x8 x9 x10 x11 : s₁.Idx → α)
    (h : Shape.Concatenates [s₁, s₁, s₁, s₁, s₁, s₁, s₁, s₁, s₁, s₁, s₁, s₁] t a)
    (hr : s₁.rank = t.rank) (h1 : s₁.size (a.cast hr.symm) = 1) (j : t.Idx) (k : Fin 12) (hk : (j a).val = k.val)
    (i : s₁.Idx) (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩, ⟨s₁, x6⟩, ⟨s₁, x7⟩, ⟨s₁, x8⟩, ⟨s₁, x9⟩, ⟨s₁, x10⟩, ⟨s₁, x11⟩] h j = pick12 x0 x1 x2 x3 x4 x5 x6 x7 x8 x9 x10 x11 k i :=
  concatenate_ofFn_unit_apply a (fun n : Fin 12 => pick12 x0 x1 x2 x3 x4 x5 x6 x7 x8 x9 x10 x11 n) h hr h1 j k hk i hi

/-- Twelve `[a, b]` arrays, each cast to `[a, b, 1]`, concatenated along the last axis: entry `(r, l, k)` is the
    `k`-th array at `(r, l)`. -/
theorem stack12_cast_apply {a b : Nat} (u0 u1 u2 u3 u4 u5 u6 u7 u8 u9 u10 u11 : (⟨2, ![a, b]⟩ : Shape).Idx → α)
    (hsc : (⟨2, ![a, b]⟩ : Shape).ShapeCasts ⟨3, ![a, b, 1]⟩)
    (hcat : Shape.Concatenates [(⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape), (⟨3, ![a, b, 1]⟩ : Shape)] ⟨3, ![a, b, 12]⟩ 2)
    (r : Fin a) (l : Fin b) (k : Fin 12) :
    concatenate (⟨3, ![a, b, 12]⟩ : Shape) 2 [⟨(⟨3, ![a, b, 1]⟩ : Shape), shapeCast ⟨3, ![a, b, 1]⟩ u0 hsc⟩, ⟨(⟨3, ![a, b, 1]⟩ : Shape), shapeCast ⟨3, ![a, b, 1]⟩ u1 hsc⟩, ⟨(⟨3, ![a, b, 1]⟩ : Shape), shapeCast ⟨3, ![a, b, 1]⟩ u2 hsc⟩, ⟨(⟨3, ![a, b, 1]⟩ : Shape), shapeCast ⟨3, ![a, b, 1]⟩ u3 hsc⟩, ⟨(⟨3, ![a, b, 1]⟩ : Shape), shapeCast ⟨3, ![a, b, 1]⟩ u4 hsc⟩, ⟨(⟨3, ![a, b, 1]⟩ : Shape), shapeCast ⟨3, ![a, b, 1]⟩ u5 hsc⟩, ⟨(⟨3, ![a, b, 1]⟩ : Shape), shapeCast ⟨3, ![a, b, 1]⟩ u6 hsc⟩, ⟨(⟨3, ![a, b, 1]⟩ : Shape), shapeCast ⟨3, ![a, b, 1]⟩ u7 hsc⟩, ⟨(⟨3, ![a, b, 1]⟩ : Shape), shapeCast ⟨3, ![a, b, 1]⟩ u8 hsc⟩, ⟨(⟨3, ![a, b, 1]⟩ : Shape), shapeCast ⟨3, ![a, b, 1]⟩ u9 hsc⟩, ⟨(⟨3, ![a, b, 1]⟩ : Shape), shapeCast ⟨3, ![a, b, 1]⟩ u10 hsc⟩, ⟨(⟨3, ![a, b, 1]⟩ : Shape), shapeCast ⟨3, ![a, b, 1]⟩ u11 hsc⟩] hcat (ix3 r l k)
      = pick12 u0 u1 u2 u3 u4 u5 u6 u7 u8 u9 u10 u11 k (ix2 r l) := by
  refine (concat12_unit_apply (t := ⟨3, ![a, b, 12]⟩) (s₁ := ⟨3, ![a, b, 1]⟩) 2 _ _ _ _ _ _ _ _ _ _ _ _ hcat rfl rfl
    (ix3 r l k) k rfl (ix3 r l ⟨0, Nat.one_pos⟩) (fun c => ?_)).trans ?_
  · match c with
    | ⟨0, _⟩ => exact fun _ => rfl
    | ⟨1, _⟩ => exact fun _ => rfl
    | ⟨2, _⟩ => exact fun hne => absurd rfl hne
  · match k with
    | ⟨0, _⟩ => exact shapeCast_apply _ hsc _ (ix2 r l) (by rw [Shape.rowMajor_val_two, Shape.rowMajor_val_three]; show r.val * b + l.val = (r.val * b + l.val) * 1 + 0; omega)
    | ⟨1, _⟩ => exact shapeCast_apply _ hsc _ (ix2 r l) (by rw [Shape.rowMajor_val_two, Shape.rowMajor_val_three]; show r.val * b + l.val = (r.val * b + l.val) * 1 + 0; omega)
    | ⟨2, _⟩ => exact shapeCast_apply _ hsc _ (ix2 r l) (by rw [Shape.rowMajor_val_two, Shape.rowMajor_val_three]; show r.val * b + l.val = (r.val * b + l.val) * 1 + 0; omega)
    | ⟨3, _⟩ => exact shapeCast_apply _ hsc _ (ix2 r l) (by rw [Shape.rowMajor_val_two, Shape.rowMajor_val_three]; show r.val * b + l.val = (r.val * b + l.val) * 1 + 0; omega)
    | ⟨4, _⟩ => exact shapeCast_apply _ hsc _ (ix2 r l) (by rw [Shape.rowMajor_val_two, Shape.rowMajor_val_three]; show r.val * b + l.val = (r.val * b + l.val) * 1 + 0; omega)
    | ⟨5, _⟩ => exact shapeCast_apply _ hsc _ (ix2 r l) (by rw [Shape.rowMajor_val_two, Shape.rowMajor_val_three]; show r.val * b + l.val = (r.val * b + l.val) * 1 + 0; omega)
    | ⟨6, _⟩ => exact shapeCast_apply _ hsc _ (ix2 r l) (by rw [Shape.rowMajor_val_two, Shape.rowMajor_val_three]; show r.val * b + l.val = (r.val * b + l.val) * 1 + 0; omega)
    | ⟨7, _⟩ => exact shapeCast_apply _ hsc _ (ix2 r l) (by rw [Shape.rowMajor_val_two, Shape.rowMajor_val_three]; show r.val * b + l.val = (r.val * b + l.val) * 1 + 0; omega)
    | ⟨8, _⟩ => exact shapeCast_apply _ hsc _ (ix2 r l) (by rw [Shape.rowMajor_val_two, Shape.rowMajor_val_three]; show r.val * b + l.val = (r.val * b + l.val) * 1 + 0; omega)
    | ⟨9, _⟩ => exact shapeCast_apply _ hsc _ (ix2 r l) (by rw [Shape.rowMajor_val_two, Shape.rowMajor_val_three]; show r.val * b + l.val = (r.val * b + l.val) * 1 + 0; omega)
    | ⟨10, _⟩ => exact shapeCast_apply _ hsc _ (ix2 r l) (by rw [Shape.rowMajor_val_two, Shape.rowMajor_val_three]; show r.val * b + l.val = (r.val * b + l.val) * 1 + 0; omega)
    | ⟨11, _⟩ => exact shapeCast_apply _ hsc _ (ix2 r l) (by rw [Shape.rowMajor_val_two, Shape.rowMajor_val_three]; show r.val * b + l.val = (r.val * b + l.val) * 1 + 0; omega)

/-- Twelve `[n]` arrays, each broadcast to `[n, 1]` along axis 0, concatenated along the last axis: entry `(i, k)`
    is the `k`-th array at `i`. -/
theorem stack12_bcast_apply {n : Nat} (u0 u1 u2 u3 u4 u5 u6 u7 u8 u9 u10 u11 : (⟨1, ![n]⟩ : Shape).Idx → α)
    (hb : (⟨1, ![n]⟩ : Shape).BroadcastsInDim ⟨2, ![n, 1]⟩ (![0] : Fin 1 → Fin 2))
    (hcat : Shape.Concatenates [(⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape)] ⟨2, ![n, 12]⟩ 1)
    (i : Fin n) (k : Fin 12) :
    concatenate (⟨2, ![n, 12]⟩ : Shape) 1 [⟨(⟨2, ![n, 1]⟩ : Shape), broadcastInDim ⟨2, ![n, 1]⟩ ![0] hb u0⟩, ⟨(⟨2, ![n, 1]⟩ : Shape), broadcastInDim ⟨2, ![n, 1]⟩ ![0] hb u1⟩, ⟨(⟨2, ![n, 1]⟩ : Shape), broadcastInDim ⟨2, ![n, 1]⟩ ![0] hb u2⟩, ⟨(⟨2, ![n, 1]⟩ : Shape), broadcastInDim ⟨2, ![n, 1]⟩ ![0] hb u3⟩, ⟨(⟨2, ![n, 1]⟩ : Shape), broadcastInDim ⟨2, ![n, 1]⟩ ![0] hb u4⟩, ⟨(⟨2, ![n, 1]⟩ : Shape), broadcastInDim ⟨2, ![n, 1]⟩ ![0] hb u5⟩, ⟨(⟨2, ![n, 1]⟩ : Shape), broadcastInDim ⟨2, ![n, 1]⟩ ![0] hb u6⟩, ⟨(⟨2, ![n, 1]⟩ : Shape), broadcastInDim ⟨2, ![n, 1]⟩ ![0] hb u7⟩, ⟨(⟨2, ![n, 1]⟩ : Shape), broadcastInDim ⟨2, ![n, 1]⟩ ![0] hb u8⟩, ⟨(⟨2, ![n, 1]⟩ : Shape), broadcastInDim ⟨2, ![n, 1]⟩ ![0] hb u9⟩, ⟨(⟨2, ![n, 1]⟩ : Shape), broadcastInDim ⟨2, ![n, 1]⟩ ![0] hb u10⟩, ⟨(⟨2, ![n, 1]⟩ : Shape), broadcastInDim ⟨2, ![n, 1]⟩ ![0] hb u11⟩] hcat (ix2 i k)
      = pick12 u0 u1 u2 u3 u4 u5 u6 u7 u8 u9 u10 u11 k (ix1 i) := by
  refine (concat12_unit_apply (t := ⟨2, ![n, 12]⟩) (s₁ := ⟨2, ![n, 1]⟩) 1 _ _ _ _ _ _ _ _ _ _ _ _ hcat rfl rfl
    (ix2 i k) k rfl (ix2 i ⟨0, Nat.one_pos⟩) (fun c => ?_)).trans ?_
  · match c with
    | ⟨0, _⟩ => exact fun _ => rfl
    | ⟨1, _⟩ => exact fun hne => absurd rfl hne
  · match k with
    | ⟨0, _⟩ => exact broadcastInDim_apply _ hb _ _ (ix1 i) (fun c => by match c with | ⟨0, _⟩ => by_cases hn : n = 1 <;> simp [hn] <;> omega)
    | ⟨1, _⟩ => exact broadcastInDim_apply _ hb _ _ (ix1 i) (fun c => by match c with | ⟨0, _⟩ => by_cases hn : n = 1 <;> simp [hn] <;> omega)
    | ⟨2, _⟩ => exact broadcastInDim_apply _ hb _ _ (ix1 i) (fun c => by match c with | ⟨0, _⟩ => by_cases hn : n = 1 <;> simp [hn] <;> omega)
    | ⟨3, _⟩ => exact broadcastInDim_apply _ hb _ _ (ix1 i) (fun c => by match c with | ⟨0, _⟩ => by_cases hn : n = 1 <;> simp [hn] <;> omega)
    | ⟨4, _⟩ => exact broadcastInDim_apply _ hb _ _ (ix1 i) (fun c => by match c with | ⟨0, _⟩ => by_cases hn : n = 1 <;> simp [hn] <;> omega)
    | ⟨5, _⟩ => exact broadcastInDim_apply _ hb _ _ (ix1 i) (fun c => by match c with | ⟨0, _⟩ => by_cases hn : n = 1 <;> simp [hn] <;> omega)
    | ⟨6, _⟩ => exact broadcastInDim_apply _ hb _ _ (ix1 i) (fun c => by match c with | ⟨0, _⟩ => by_cases hn : n = 1 <;> simp [hn] <;> omega)
    | ⟨7, _⟩ => exact broadcastInDim_apply _ hb _ _ (ix1 i) (fun c => by match c with | ⟨0, _⟩ => by_cases hn : n = 1 <;> simp [hn] <;> omega)
    | ⟨8, _⟩ => exact broadcastInDim_apply _ hb _ _ (ix1 i) (fun c => by match c with | ⟨0, _⟩ => by_cases hn : n = 1 <;> simp [hn] <;> omega)
    | ⟨9, _⟩ => exact broadcastInDim_apply _ hb _ _ (ix1 i) (fun c => by match c with | ⟨0, _⟩ => by_cases hn : n = 1 <;> simp [hn] <;> omega)
    | ⟨10, _⟩ => exact broadcastInDim_apply _ hb _ _ (ix1 i) (fun c => by match c with | ⟨0, _⟩ => by_cases hn : n = 1 <;> simp [hn] <;> omega)
    | ⟨11, _⟩ => exact broadcastInDim_apply _ hb _ _ (ix1 i) (fun c => by match c with | ⟨0, _⟩ => by_cases hn : n = 1 <;> simp [hn] <;> omega)

end Cert.LibStackLast

end
-- ==== Proof.KernelBlock.lean ====
/-
  What the kernel body leaves in its output block, entry by entry.
  The body loads one `[256, 128]` block `x` of the argument, runs Bonnet's recurrence on whole vectors — every
  operation pointwise — casts each of the twelve results to `[256, 128, 1]` and concatenates them along the new
  last axis into the `[256, 128, 12]` block it stores. So entry `(r, l, k)` of the stored block is the `k`-th
  Legendre polynomial at `x (r, l)`: `block_apply`.
  The recurrence is read one turn at a time: each named vector of the body is `Legendre.step` of the two
  vectors before it at every index (`kstep_apply`, definitional), and by induction down the chain the `n`-th one
  is `Legendre.pₙ` of the loaded entry.
-/
import proofs.«147041_j45148696215933_2_alg».proof.Proof.Gen.KernelIdeal.Frame
import proofs.«147041_j45148696215933_2_alg».proof.Proof.Legendre
import proofs.«147041_j45148696215933_2_alg».proof.Proof.LibStackLast
import Idealize.ShloMosaic.Lib.Pipeline.Value
import Idealize.ShloMosaic.Lib.ValueIdx

noncomputable section

namespace Cert.KernelIdeal.Block

open Idealize.ShloMosaic Idealize.ShloMosaic.ValueIdx Cert.KernelIdeal Cert.KernelIdeal.Gen Cert.Legendre Cert.LibStackLast

/-! ## The recurrence's vectors at an index -/

section Chain
variable (x : FVec Ideal S256x128 .f32) (i : S256x128.Idx)

/-- The body's first cast is to the same shape: the loaded block itself. -/
theorem pay2_eq : k0_pay2 (F := Ideal) x = x := shapeCast_self _ _

theorem pay3_apply : k0_pay3 (F := Ideal) i = p0 (x i) := rfl

theorem pay4_apply : k0_pay4 (F := Ideal) x i = p2 (x i) := by
  have e : k0_pay4 (F := Ideal) x i
      = step 0x40400000#32 0x3F800000#32 0x40000000#32 (k0_pay2 (F := Ideal) x i) (k0_pay2 (F := Ideal) x i) (k0_pay3 (F := Ideal) i) := rfl
  rw [e, pay2_eq]; rfl

theorem pay5_apply : k0_pay5 (F := Ideal) x i = p3 (x i) := by
  have e : k0_pay5 (F := Ideal) x i
      = step 0x40A00000#32 0x40000000#32 0x40400000#32 (k0_pay2 (F := Ideal) x i) (k0_pay4 (F := Ideal) x i) (k0_pay2 (F := Ideal) x i) := rfl
  rw [e, pay2_eq, pay4_apply]; rfl

theorem pay6_apply : k0_pay6 (F := Ideal) x i = p4 (x i) := by
  have e : k0_pay6 (F := Ideal) x i
      = step 0x40E00000#32 0x40400000#32 0x40800000#32 (k0_pay2 (F := Ideal) x i) (k0_pay5 (F := Ideal) x i) (k0_pay4 (F := Ideal) x i) := rfl
  rw [e, pay2_eq, pay5_apply, pay4_apply]; rfl

theorem pay7_apply : k0_pay7 (F := Ideal) x i = p5 (x i) := by
  have e : k0_pay7 (F := Ideal) x i
      = step 0x41100000#32 0x40800000#32 0x40A00000#32 (k0_pay2 (F := Ideal) x i) (k0_pay6 (F := Ideal) x i) (k0_pay5 (F := Ideal) x i) := rfl
  rw [e, pay2_eq, pay6_apply, pay5_apply]; rfl

/-- The sixth turn is cut in two by the body's text (numerator, then quotient): together they are one turn. -/
theorem pay9_apply : k0_pay9 (F := Ideal) (k0_pay8 (F := Ideal) x) (Scalar.ofBits (F := Ideal) .f32 0x40C00000#32) i = p6 (x i) := by
  have e : k0_pay9 (F := Ideal) (k0_pay8 (F := Ideal) x) (Scalar.ofBits (F := Ideal) .f32 0x40C00000#32) i
      = step 0x41300000#32 0x40A00000#32 0x40C00000#32 (k0_pay2 (F := Ideal) x i) (k0_pay7 (F := Ideal) x i) (k0_pay6 (F := Ideal) x i) := rfl
  rw [e, pay2_eq, pay7_apply, pay6_apply]; rfl

end Chain

/-! The later turns are written over the vectors the second half of the body receives: the loaded block `v1`,
    P₅ as `v34`, the sixth turn's numerator `v40` and its divisor `c`. -/

section Tail
variable (v1 v34 v40 : FVec Ideal S256x128 .f32) (c : Ideal .f32) (i : S256x128.Idx)

theorem pay10_step : k0_pay10 (F := Ideal) v1 v34 v40 c i
    = step 0x41500000#32 0x40C00000#32 0x40E00000#32 (v1 i) (k0_pay9 (F := Ideal) v40 c i) (v34 i) := rfl
theorem pay11_step : k0_pay11 (F := Ideal) v1 v34 v40 c i
    = step 0x41700000#32 0x40E00000#32 0x41000000#32 (v1 i) (k0_pay10 (F := Ideal) v1 v34 v40 c i) (k0_pay9 (F := Ideal) v40 c i) := rfl
theorem pay12_step : k0_pay12 (F := Ideal) v1 v34 v40 c i
    = step 0x41880000#32 0x41000000#32 0x41100000#32 (v1 i) (k0_pay11 (F := Ideal) v1 v34 v40 c i) (k0_pay10 (F := Ideal) v1 v34 v40 c i) := rfl
theorem pay13_step : k0_pay13 (F := Ideal) v1 v34 v40 c i
    = step 0x41980000#32 0x41100000#32 0x41200000#32 (v1 i) (k0_pay12 (F := Ideal) v1 v34 v40 c i) (k0_pay11 (F := Ideal) v1 v34 v40 c i) := rfl
theorem pay14_step : k0_pay14 (F := Ideal) v1 v34 v40 c i
    = step 0x41A80000#32 0x41200000#32 0x41300000#32 (v1 i) (k0_pay13 (F := Ideal) v1 v34 v40 c i) (k0_pay12 (F := Ideal) v1 v34 v40 c i) := rfl

end Tail

section Chain2
variable (x : FVec Ideal S256x128 .f32) (i : S256x128.Idx)

theorem pay10_apply : k0_pay10 (F := Ideal) x (k0_pay7 (F := Ideal) x) (k0_pay8 (F := Ideal) x) (Scalar.ofBits (F := Ideal) .f32 0x40C00000#32) i = p7 (x i) := by
  rw [pay10_step, pay9_apply, pay7_apply]; rfl
theorem pay11_apply : k0_pay11 (F := Ideal) x (k0_pay7 (F := Ideal) x) (k0_pay8 (F := Ideal) x) (Scalar.ofBits (F := Ideal) .f32 0x40C00000#32) i = p8 (x i) := by
  rw [pay11_step, pay10_apply, pay9_apply]; rfl
theorem pay12_apply : k0_pay12 (F := Ideal) x (k0_pay7 (F := Ideal) x) (k0_pay8 (F := Ideal) x) (Scalar.ofBits (F := Ideal) .f32 0x40C00000#32) i = p9 (x i) := by
  rw [pay12_step, pay11_apply, pay10_apply]; rfl
theorem pay13_apply : k0_pay13 (F := Ideal) x (k0_pay7 (F := Ideal) x) (k0_pay8 (F := Ideal) x) (Scalar.ofBits (F := Ideal) .f32 0x40C00000#32) i = p10 (x i) := by
  rw [pay13_step, pay12_apply, pay11_apply]; rfl
theorem pay14_apply : k0_pay14 (F := Ideal) x (k0_pay7 (F := Ideal) x) (k0_pay8 (F := Ideal) x) (Scalar.ofBits (F := Ideal) .f32 0x40C00000#32) i = p11 (x i) := by
  rw [pay14_step, pay13_apply, pay12_apply]; rfl

end Chain2

/-! ## The stored block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(r, l, k)` of the block the body stores is the `k`-th Legendre polynomial at entry `(r, l)` of the block it
    loaded. -/
theorem block_apply (x : Vec Ideal S256x128 .f32) (r : Fin 256) (l : Fin 128) (k : Fin 12) :
    out0_1 (F := Ideal) x (ix3 r l k) = P k (x (ix2 r l)) := by
  unfold out0_1
  rw [View.canon_unit_zero hz3]
  simp only [View.ld_unit_zero (S := S256x128) hz2]
  unfold k0_pay1 k0_pay15 k0_pay16 k0_pay17
  rw [pay2_eq]
  refine (stack12_cast_apply (a := 256) (b := 128) _ _ _ _ _ _ _ _ _ _ _ _ _ _ r l k).trans ?_
  match k with
  | ⟨0, _⟩ => exact pay3_apply x (ix2 r l)
  | ⟨1, _⟩ => rfl
  | ⟨2, _⟩ => exact pay4_apply x (ix2 r l)
  | ⟨3, _⟩ => exact pay5_apply x (ix2 r l)
  | ⟨4, _⟩ => exact pay6_apply x (ix2 r l)
  | ⟨5, _⟩ => exact pay7_apply x (ix2 r l)
  | ⟨6, _⟩ => exact pay9_apply x (ix2 r l)
  | ⟨7, _⟩ => exact pay10_apply x (ix2 r l)
  | ⟨8, _⟩ => exact pay11_apply x (ix2 r l)
  | ⟨9, _⟩ => exact pay12_apply x (ix2 r l)
  | ⟨10, _⟩ => exact pay13_apply x (ix2 r l)
  | ⟨11, _⟩ => exact pay14_apply x (ix2 r l)

end Cert.KernelIdeal.Block

end
-- ==== Proof.LegendreLayout.lean ====
/-
  The kernel's arrangement of the same result.
  The kernel views the `[16777216]` argument as `[131072, 128]` (row `R`, lane `l` ↦ entry `128·R + l`), fills a
  `[131072, 128, 12]` array whose entry `(R, l, k)` is the `k`-th Legendre polynomial at `(R, l)` (`G1`), and views
  that array as `[16777216, 12]`. Both views are row-major reshapes, so entry `(i, k)` of the final array is entry
  `(i / 128, i % 128, k)` of the middle one, which reads the argument at `128·(i / 128) + i % 128 = i`:
  the final array is `Legendre.G` of the argument (`reshape_G1`).
-/
import proofs.«147041_j45148696215933_2_alg».proof.Proof.Legendre
import Idealize.ShloMosaic.Lib.Pipeline.Value
import Idealize.ShloMosaic.Lib.ValueIdx

noncomputable section

namespace Cert.Legendre

open Idealize.ShloMosaic Idealize.ShloMosaic.ValueIdx

/-- Entry `(R, l, k)` is the `k`-th polynomial at entry `(R, l)` of a `[131072, 128]` array. -/
def G1 (x2 : (⟨2, ![131072, 128]⟩ : Shape).Idx → EReal) : (⟨3, ![131072, 128, 12]⟩ : Shape).Idx → EReal :=
  fun j => P (j 2) (x2 (ix2 (j 0) (j 1)))

theorem G1_apply (x2 : (⟨2, ![131072, 128]⟩ : Shape).Idx → EReal) (R : Fin 131072) (l : Fin 128) (k : Fin 12) :
    G1 x2 (ix3 R l k) = P k (x2 (ix2 R l)) := rfl

/-- Reshape the argument to rows of 128, apply `G1`, reshape back to one row per argument entry: `G`. -/
theorem reshape_G1 (x : (⟨1, ![16777216]⟩ : Shape).Idx → EReal)
    (h1 : (⟨1, ![16777216]⟩ : Shape).ShapeCasts ⟨2, ![131072, 128]⟩)
    (h2 : (⟨3, ![131072, 128, 12]⟩ : Shape).ShapeCasts ⟨2, ![16777216, 12]⟩) :
    shapeCast ⟨2, ![16777216, 12]⟩ (G1 (shapeCast ⟨2, ![131072, 128]⟩ x h1)) h2 = G x := by
  funext j
  obtain ⟨i, k, rfl⟩ : ∃ (i : Fin 16777216) (k : Fin 12), j = ix2 i k := ⟨j 0, j 1, eq_ix2 j⟩
  have hR : i.val / 128 < 131072 := by have := i.isLt; omega
  have hl : i.val % 128 < 128 := Nat.mod_lt _ (by norm_num)
  refine (shapeCast_apply _ h2 (ix2 i k) (ix3 ⟨i.val / 128, hR⟩ ⟨i.val % 128, hl⟩ k) ?_).trans ?_
  · rw [Shape.rowMajor_val_three, Shape.rowMajor_val_two]
    show ((i.val / 128) * 128 + i.val % 128) * 12 + k.val = i.val * 12 + k.val
    omega
  · rw [G1_apply, G_apply]
    refine congrArg (P k) (shapeCast_apply _ h1 (ix2 ⟨i.val / 128, hR⟩ ⟨i.val % 128, hl⟩) (ix1 i) ?_)
    rw [Shape.rowMajor_val_one, Shape.rowMajor_val_two]
    show i.val = (i.val / 128) * 128 + i.val % 128
    omega

end Cert.Legendre

end
-- ==== Proof.KernelArray.lean ====
/-
  From the kernel's blocks to its result array, and through the two host reshapes around the region.
  The grid has 512 points; point `t` reads rows `256·t … 256·t + 255` of the `[131072, 128]` view of the argument and
  writes the same rows of the `[131072, 128, 12]` output (both index maps are `t ↦ (t, 0, …)`: `idx_facts`). With
  `block_apply` for what the body stores, what point `t` writes back is block `t` of `G1` of that view
  (`flushed_eq`); every row lies in the block of point `row / 256` (`cover`); so after the region the output array
  is `G1` of the view (`final`). The view is the host's reshape of the argument (`view_eq`) and the program's result is
  the host's reshape of the output array (`tail_eq`), so by `reshape_G1` the result is `Legendre.G` of the argument:
  `run`.
-/
import proofs.«147041_j45148696215933_2_alg».proof.Proof.Gen.KernelIdeal.Frame
import proofs.«147041_j45148696215933_2_alg».proof.Proof.KernelBlock
import proofs.«147041_j45148696215933_2_alg».proof.Proof.LegendreLayout
import Idealize.ShloMosaic.Lib.Pipeline.Value
import Idealize.ShloMosaic.Lib.ValueIdx
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Legendre

variable (m : (ℓ : Loc nD τ sig) → Buf (Elt Ideal) ℓ) (ρ : Dev nD → PrngReg)

/-- The printed index maps, decided over the grid: at point `t` both windows sit at block row `t`, block 0 on the
    other axes. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- One entry of the stored block, at any index of the block. -/
theorem block_read (x0 : Vec Ideal S256x128 .f32) (y : S256x128x12.Idx) :
    out0_1 (F := Ideal) x0 y = P (y 2) (x0 (ix2 (y 0) (y 1))) := by
  obtain ⟨r, l, k, rfl⟩ : ∃ (r : Fin 256) (l : Fin 128) (k : Fin 12), y = ix3 r l k := ⟨y 0, y 1, y 2, eq_ix3 y⟩
  exact Block.block_apply x0 r l k

/-- WHAT POINT `t` WRITES BACK is block `t` of `G1` of the `[131072, 128]` array the region finds. -/
theorem flushed_eq (c : Dev nD) (t : Fin cfg0.N) :
    (dats m 0 c).flushed 1 t = ((cfg0.win 1).blk t).view.read (Elt Ideal) (G1 (V m c main_v0)) := by
  show (cfg0.win 1).cut (grid0.coords t) ((dats m 0 c).after 1 t) = _
  rw [after0_1]
  obtain ⟨e0, e1, e2, e3, e4⟩ := idx_facts t
  funext y
  show out0_1 (F := Ideal) (iblk m c 0 t) y = G1 (V m c main_v0) (((cfg0.win 1).blk t).view.emb y)
  rw [block_read]
  show P (y 2) (V m c main_v0 (((cfg0.win 0).blk t).view.emb (ix2 (y 0) (y 1))))
    = P ((((cfg0.win 1).blk t).view.emb y) 2) (V m c main_v0 (ix2 ((((cfg0.win 1).blk t).view.emb y) 0) ((((cfg0.win 1).blk t).view.emb y) 1)))
  have hk : (((cfg0.win 1).blk t).view.emb y) 2 = y 2 := by
    apply Fin.ext
    show win0_1.index t (2 : Fin 3) * 12 + 1 * (y 2).val = (y 2).val
    omega
  have hx : ((cfg0.win 0).blk t).view.emb (ix2 (y 0) (y 1))
      = ix2 ((((cfg0.win 1).blk t).view.emb y) 0) ((((cfg0.win 1).blk t).view.emb y) 1) := by
    funext a; apply Fin.ext
    match a with
    | ⟨0, _⟩ => show win0_0.index t (0 : Fin 2) * 256 + 1 * (y 0).val = win0_1.index t (0 : Fin 3) * 256 + 1 * (y 0).val; omega
    | ⟨1, _⟩ => show win0_0.index t (1 : Fin 2) * 128 + 1 * (y 1).val = win0_1.index t (1 : Fin 3) * 128 + 1 * (y 1).val; omega
  rw [hk, hx]
  rfl

/-- An index of the output array is in point `t`'s block iff each coordinate is in the block's range on its axis. -/
theorem mem_blk (t : Fin cfg0.N) (i : S131072x128x12.Idx) :
    i ∈ ((cfg0.win 1).blk t).view.set ↔ ∀ a : Fin 3, win0_1.index t a * S256x128x12.size a ≤ (i a).val ∧ (i a).val < win0_1.index t a * S256x128x12.size a + S256x128x12.size a := by
  show i ∈ ((View.whole main_v1).slice (win0_1.rect t)).set ↔ _
  rw [View.set_slice_whole, Rect.mem_set_unit]
  exact Iff.rfl

/-- Every entry of the output array is written back by the point its row falls to. -/
theorem cover (i : S131072x128x12.Idx) :
    ∃ t : Fin cfg0.N, (cfg0.win 1).flush t = true ∧ i ∈ ((cfg0.win 1).blk t).view.set := by
  have hi0 : (i 0).val < 131072 := (i 0).isLt
  have hi1 : (i 1).val < 128 := (i 1).isLt
  have hi2 : (i 2).val < 12 := (i 2).isLt
  have hN : grid0.N = 512 := N_0
  let t : Fin cfg0.N := ⟨(i 0).val / 256, by show (i 0).val / 256 < grid0.N; omega⟩
  obtain ⟨e0, e1, e2, e3, e4⟩ := idx_facts t
  have e2' : win0_1.index t (0 : Fin 3) = (i 0).val / 256 := e2
  refine ⟨t, flush0_1 t, ?_⟩
  rw [mem_blk]
  intro a
  match a with
  | ⟨0, _⟩ => show win0_1.index t (0 : Fin 3) * 256 ≤ (i 0).val ∧ (i 0).val < win0_1.index t (0 : Fin 3) * 256 + 256; omega
  | ⟨1, _⟩ => show win0_1.index t (1 : Fin 3) * 128 ≤ (i 1).val ∧ (i 1).val < win0_1.index t (1 : Fin 3) * 128 + 128; omega
  | ⟨2, _⟩ => show win0_1.index t (2 : Fin 3) * 12 ≤ (i 2).val ∧ (i 2).val < win0_1.index t (2 : Fin 3) * 12 + 12; omega

/-- THE OUTPUT ARRAY after the region: `G1` of the `[131072, 128]` array the region finds. -/
theorem final (c : Dev nD) : (dats m 0 c).arrAt 1 cfg0.N = G1 (V m c main_v0) :=
  (dats m 0 c).arrAt_eq_of_cover 1 (G1 (V m c main_v0)) (fun t _ => flushed_eq m c t) cover

/-- The array the region finds is the host's reshape of the argument. -/
theorem view_eq (c : Dev nD) : (V m c main_v0 : S131072x128.Idx → Elt Ideal .f32)
    = shapeCast S131072x128 (m ((c : Thread nD τ).loc main_arg0)) Facts₀.shapeCasts_S16777216_S131072x128 := by
  show StableHlo.after hostOps0 (fun b => m (c, b)) (Proc.devRef .tc main_v0) = _
  after_results
  rfl

/-- The program's result is the host's reshape of the output array. -/
theorem tail_eq (c : Dev nD) : Pipeline.afterTail₀ cfgs (dats m) 0 (V0 m) [hostOps1] c main_v2
    = shapeCast S16777216x12 ((dats m 0 c).arrAt 1 cfg0.N) Facts₀.shapeCasts_S131072x128x12_S16777216x12 := by
  unfold Pipeline.afterTail₀
  show StableHlo.after hostOps1 _ (Proc.devRef .tc main_v2) = _
  after_results
  exact congrArg (fun z => shapeCast S16777216x12 z Facts₀.shapeCasts_S131072x128x12_S16777216x12)
    (Pipeline.withArrays_arr spec0 launch0.win.arr_inj c _ _ 1)

/-- The kernel's run, read: every weakly fair execution ends with the result at `Legendre.G` of the argument and the
    argument unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans
        ((tail_eq m c).trans (by rw [final, view_eq]; exact reshape_G1 _ _ _)),
      ((h c).2 main_arg0 (Pipeline.mem_restRefs_of main_arg0 (by decide) (by decide))).trans (W_main_arg0 m (dats m) c)⟩)
    (run_main m ρ)

end Cert.KernelIdeal.Arr

end
-- ==== Proof.Reference.lean ====
/-
  What the reference computes, entry by entry.
  The reference runs Bonnet's recurrence on the whole `[16777216]` argument — every operation pointwise, the
  coefficients rank-0 constants broadcast, the quotient the host's — then gives each of the twelve results a
  trailing unit axis (`broadcast_in_dim` along axis 0) and concatenates them along it. So entry `(i, k)` of its
  `[16777216, 12]` result is the `k`-th Legendre polynomial at entry `i` of the argument: the result is
  `Legendre.G` of the argument (`result_eq`).
  As on the kernel's side the recurrence is read one turn at a time (`hstep_apply`, definitional).
-/
import proofs.«147041_j45148696215933_2_alg».proof.Proof.Gen.ReferenceIdeal.Run
import proofs.«147041_j45148696215933_2_alg».proof.Proof.Legendre
import proofs.«147041_j45148696215933_2_alg».proof.Proof.LibStackLast
import Idealize.ShloMosaic.Lib.ValueIdx

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Legendre Cert.LibStackLast

variable (V : Valuation τ sig (Elt Ideal)) (i : S16777216.Idx)

/-- The argument array under a valuation. -/
abbrev arg : FVec Ideal S16777216 .f32 := V (Proc.devRef .tc main_arg0)

/-! ## The recurrence's named arrays at an index -/

theorem res0_apply : (res_main_v0 (F := Ideal) V : FVec Ideal S16777216 .f32) i = p0 (arg V i) := rfl

theorem res8_apply : (res_main_v8 (F := Ideal) V : FVec Ideal S16777216 .f32) i = p2 (arg V i) := by
  have e : (res_main_v8 (F := Ideal) V : FVec Ideal S16777216 .f32) i
      = step 0x40400000#32 0x3F800000#32 0x40000000#32 (arg V i) (arg V i) ((res_main_v0 (F := Ideal) V : FVec Ideal S16777216 .f32) i) := rfl
  rw [e, res0_apply]; rfl

theorem res16_apply : (res_main_v16 (F := Ideal) V : FVec Ideal S16777216 .f32) i = p3 (arg V i) := by
  have e : (res_main_v16 (F := Ideal) V : FVec Ideal S16777216 .f32) i
      = step 0x40A00000#32 0x40000000#32 0x40400000#32 (arg V i) ((res_main_v8 (F := Ideal) V : FVec Ideal S16777216 .f32) i) (arg V i) := rfl
  rw [e, res8_apply]; rfl

theorem res24_apply : (res_main_v24 (F := Ideal) V : FVec Ideal S16777216 .f32) i = p4 (arg V i) := by
  have e : (res_main_v24 (F := Ideal) V : FVec Ideal S16777216 .f32) i
      = step 0x40E00000#32 0x40400000#32 0x40800000#32 (arg V i) ((res_main_v16 (F := Ideal) V : FVec Ideal S16777216 .f32) i) ((res_main_v8 (F := Ideal) V : FVec Ideal S16777216 .f32) i) := rfl
  rw [e, res16_apply, res8_apply]; rfl

theorem res32_apply : (res_main_v32 (F := Ideal) V : FVec Ideal S16777216 .f32) i = p5 (arg V i) := by
  have e : (res_main_v32 (F := Ideal) V : FVec Ideal S16777216 .f32) i
      = step 0x41100000#32 0x40800000#32 0x40A00000#32 (arg V i) ((res_main_v24 (F := Ideal) V : FVec Ideal S16777216 .f32) i) ((res_main_v16 (F := Ideal) V : FVec Ideal S16777216 .f32) i) := rfl
  rw [e, res24_apply, res16_apply]; rfl

theorem res40_apply : (res_main_v40 (F := Ideal) V : FVec Ideal S16777216 .f32) i = p6 (arg V i) := by
  have e : (res_main_v40 (F := Ideal) V : FVec Ideal S16777216 .f32) i
      = step 0x41300000#32 0x40A00000#32 0x40C00000#32 (arg V i) ((res_main_v32 (F := Ideal) V : FVec Ideal S16777216 .f32) i) ((res_main_v24 (F := Ideal) V : FVec Ideal S16777216 .f32) i) := rfl
  rw [e, res32_apply, res24_apply]; rfl

theorem res48_apply : (res_main_v48 (F := Ideal) V : FVec Ideal S16777216 .f32) i = p7 (arg V i) := by
  have e : (res_main_v48 (F := Ideal) V : FVec Ideal S16777216 .f32) i
      = step 0x41500000#32 0x40C00000#32 0x40E00000#32 (arg V i) ((res_main_v40 (F := Ideal) V : FVec Ideal S16777216 .f32) i) ((res_main_v32 (F := Ideal) V : FVec Ideal S16777216 .f32) i) := rfl
  rw [e, res40_apply, res32_apply]; rfl

theorem res56_apply : (res_main_v56 (F := Ideal) V : FVec Ideal S16777216 .f32) i = p8 (arg V i) := by
  have e : (res_main_v56 (F := Ideal) V : FVec Ideal S16777216 .f32) i
      = step 0x41700000#32 0x40E00000#32 0x41000000#32 (arg V i) ((res_main_v48 (F := Ideal) V : FVec Ideal S16777216 .f32) i) ((res_main_v40 (F := Ideal) V : FVec Ideal S16777216 .f32) i) := rfl
  rw [e, res48_apply, res40_apply]; rfl

theorem res64_apply : (res_main_v64 (F := Ideal) V : FVec Ideal S16777216 .f32) i = p9 (arg V i) := by
  have e : (res_main_v64 (F := Ideal) V : FVec Ideal S16777216 .f32) i
      = step 0x41880000#32 0x41000000#32 0x41100000#32 (arg V i) ((res_main_v56 (F := Ideal) V : FVec Ideal S16777216 .f32) i) ((res_main_v48 (F := Ideal) V : FVec Ideal S16777216 .f32) i) := rfl
  rw [e, res56_apply, res48_apply]; rfl

theorem res72_apply : (res_main_v72 (F := Ideal) V : FVec Ideal S16777216 .f32) i = p10 (arg V i) := by
  have e : (res_main_v72 (F := Ideal) V : FVec Ideal S16777216 .f32) i
      = step 0x41980000#32 0x41100000#32 0x41200000#32 (arg V i) ((res_main_v64 (F := Ideal) V : FVec Ideal S16777216 .f32) i) ((res_main_v56 (F := Ideal) V : FVec Ideal S16777216 .f32) i) := rfl
  rw [e, res64_apply, res56_apply]; rfl

/-- The last turn, which the run's term carries inline. -/
theorem last_apply : (Host.divf (subf (mulf (mulf (broadcastInDim S16777216 ![] Facts₀.bcast_S_S16777216 (constant (F := Ideal) S_ .f32 0x41A80000#32)) (arg V)) (res_main_v72 (F := Ideal) V : FVec Ideal S16777216 .f32))
      (mulf (broadcastInDim S16777216 ![] Facts₀.bcast_S_S16777216 (constant (F := Ideal) S_ .f32 0x41200000#32)) (res_main_v64 (F := Ideal) V : FVec Ideal S16777216 .f32)))
      (broadcastInDim S16777216 ![] Facts₀.bcast_S_S16777216 (constant (F := Ideal) S_ .f32 0x41300000#32)) : FVec Ideal S16777216 .f32) i = p11 (arg V i) := by
  rw [hstep_apply, res72_apply, res64_apply]; rfl

/-! ## The result -/

/-- The reference run's result term, as a function of the buffers' contents at launch. -/
def result : FVec Ideal S16777216x12 .f32 :=
  concatenate S16777216x12 1 [⟨S16777216x1, (broadcastInDim S16777216x1 ![0] Facts₀.bcast_S16777216_S16777216x1_0 (res_main_v0 V))⟩, ⟨S16777216x1, (broadcastInDim S16777216x1 ![0] Facts₀.bcast_S16777216_S16777216x1_0 (V (Proc.devRef .tc main_arg0)))⟩, ⟨S16777216x1, (broadcastInDim S16777216x1 ![0] Facts₀.bcast_S16777216_S16777216x1_0 (res_main_v8 V))⟩, ⟨S16777216x1, (broadcastInDim S16777216x1 ![0] Facts₀.bcast_S16777216_S16777216x1_0 (res_main_v16 V))⟩, ⟨S16777216x1, (broadcastInDim S16777216x1 ![0] Facts₀.bcast_S16777216_S16777216x1_0 (res_main_v24 V))⟩, ⟨S16777216x1, (broadcastInDim S16777216x1 ![0] Facts₀.bcast_S16777216_S16777216x1_0 (res_main_v32 V))⟩, ⟨S16777216x1, (broadcastInDim S16777216x1 ![0] Facts₀.bcast_S16777216_S16777216x1_0 (res_main_v40 V))⟩, ⟨S16777216x1, (broadcastInDim S16777216x1 ![0] Facts₀.bcast_S16777216_S16777216x1_0 (res_main_v48 V))⟩, ⟨S16777216x1, (broadcastInDim S16777216x1 ![0] Facts₀.bcast_S16777216_S16777216x1_0 (res_main_v56 V))⟩, ⟨S16777216x1, (broadcastInDim S16777216x1 ![0] Facts₀.bcast_S16777216_S16777216x1_0 (res_main_v64 V))⟩, ⟨S16777216x1, (broadcastInDim S16777216x1 ![0] Facts₀.bcast_S16777216_S16777216x1_0 (res_main_v72 V))⟩, ⟨S16777216x1, (broadcastInDim S16777216x1 ![0] Facts₀.bcast_S16777216_S16777216x1_0 (Host.divf (subf (mulf (mulf (broadcastInDim S16777216 ![] Facts₀.bcast_S_S16777216 (constant (F := Ideal) S_ .f32 0x41A80000#32)) (V (Proc.devRef .tc main_arg0))) (res_main_v72 V)) (mulf (broadcastInDim S16777216 ![] Facts₀.bcast_S_S16777216 (constant (F := Ideal) S_ .f32 0x41200000#32)) (res_main_v64 V))) (broadcastInDim S16777216 ![] Facts₀.bcast_S_S16777216 (constant (F := Ideal) S_ .f32 0x41300000#32))))⟩] Facts₀.concatenates_S16777216x1_S16777216x1_S16777216x1_S16777216x1_S16777216x1_S16777216x1_S16777216x1_S16777216x1_S16777216x1_S16777216x1_S16777216x1_S16777216x1_S16777216x12_d1

/-- Entry `(i, k)` of the result is the `k`-th Legendre polynomial at entry `i` of the argument. -/
theorem result_apply (i : Fin 16777216) (k : Fin 12) : result V (ix2 i k) = P k (arg V (ix1 i)) := by
  unfold result
  refine (stack12_bcast_apply (n := 16777216) _ _ _ _ _ _ _ _ _ _ _ _ _ _ i k).trans ?_
  match k with
  | ⟨0, _⟩ => exact res0_apply V _
  | ⟨1, _⟩ => rfl
  | ⟨2, _⟩ => exact res8_apply V _
  | ⟨3, _⟩ => exact res16_apply V _
  | ⟨4, _⟩ => exact res24_apply V _
  | ⟨5, _⟩ => exact res32_apply V _
  | ⟨6, _⟩ => exact res40_apply V _
  | ⟨7, _⟩ => exact res48_apply V _
  | ⟨8, _⟩ => exact res56_apply V _
  | ⟨9, _⟩ => exact res64_apply V _
  | ⟨10, _⟩ => exact res72_apply V _
  | ⟨11, _⟩ => exact last_apply V _

/-- The reference's result is `Legendre.G` of its argument. -/
theorem result_eq : result V = G (arg V) := by
  funext j
  obtain ⟨i, k, rfl⟩ : ∃ (i : Fin 16777216) (k : Fin 12), j = ix2 i k := ⟨j 0, j 1, eq_ix2 j⟩
  exact result_apply V i k

end Cert.ReferenceIdeal.RefValue

end
-- ==== Proof.lean ====
/-
  A Pallas kernel that expands each entry of a `[16777216]` array in the Legendre polynomials P₀ … P₁₁ — Bonnet's
  recurrence `P₍ₙ₊₁₎ = ((2n+1)·x·Pₙ − n·P₍ₙ₋₁₎) / (n+1)` on `[256, 128]` blocks of the argument viewed as
  `[131072, 128]`, the twelve results stacked on a new last axis — against the same recurrence written in jnp over
  the whole array.
  The two programs apply the same operations in the same order with the same float words, so at the ideal
  instance both results are, entry by entry, one term of the extended reals, `Legendre.P k (x i)`; nothing about
  the arithmetic of the extended reals is used, and the precondition (finite inputs) is never opened. What is
  proved is the arrangement: on the kernel's side that the blocks written back tile the output array and that the
  two row-major reshapes around the region carry entry `(i / 128, i % 128, k)` to entry `(i, k)`
  (Proof/KernelBlock.lean, Proof/KernelArray.lean, Proof/LegendreLayout.lean); on the reference's side that the
  concatenation of twelve `[16777216, 1]` columns reads column `k` at `(i, k)` (Proof/Reference.lean); the stacking
  itself is Proof/LibStackLast.lean. The frames of the two kernel programs are the generated ones; the reference's
  frame is its generated run with the result dropped; the ideal pass rewrote nothing, so `preserves` is `True`.
-/
import proofs.«147041_j45148696215933_2_alg».proof.Defs
import proofs.«147041_j45148696215933_2_alg».proof.Proof.Gen.Kernel
import proofs.«147041_j45148696215933_2_alg».proof.Proof.Gen.Kernel.Skeleton
import proofs.«147041_j45148696215933_2_alg».proof.Proof.Gen.Kernel.Launch
import proofs.«147041_j45148696215933_2_alg».proof.Proof.Gen.Kernel.Points
import proofs.«147041_j45148696215933_2_alg».proof.Proof.Gen.Kernel.Frame
import proofs.«147041_j45148696215933_2_alg».proof.Proof.Gen.KernelIdeal
import proofs.«147041_j45148696215933_2_alg».proof.Proof.Gen.KernelIdeal.Skeleton
import proofs.«147041_j45148696215933_2_alg».proof.Proof.Gen.KernelIdeal.Launch
import proofs.«147041_j45148696215933_2_alg».proof.Proof.Gen.KernelIdeal.Points
import proofs.«147041_j45148696215933_2_alg».proof.Proof.Gen.KernelIdeal.Frame
import proofs.«147041_j45148696215933_2_alg».proof.Proof.Gen.ReferenceIdeal
import proofs.«147041_j45148696215933_2_alg».proof.Proof.Gen.Pre_finite_inputs
import proofs.«147041_j45148696215933_2_alg».proof.Proof.Gen.ReferenceIdeal.Run
import proofs.«147041_j45148696215933_2_alg».proof.Proof.KernelArray
import proofs.«147041_j45148696215933_2_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the argument both programs end with their result at `Legendre.G` of it: the kernel by
    its blocks and the two reshapes (`KernelIdeal.Arr.run`), the reference by its run's term read entry by entry
    (`ReferenceIdeal.RefValue.result_eq`). -/
theorem algebraic : Cert.algebraic_KernelIdeal_ReferenceIdeal := by
  intro m ρ m' ρ' _ hagree
  refine ⟨fun c => Cert.Legendre.G (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.RefValue.result_eq (StableHlo.launchContents m' c)).trans
    (congrArg Cert.Legendre.G (hagree c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
